-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x64x64x32x32 : Shape := ⟨5, ![4, 64, 64, 32, 32]⟩
abbrev S4x64x64x256x32 : Shape := ⟨5, ![4, 64, 64, 256, 32]⟩
abbrev S4x64x64x32x1 : Shape := ⟨5, ![4, 64, 64, 32, 1]⟩
abbrev S_ : Shape := ⟨0, ![]⟩

class Facts : Prop where
  bcast_S_S4x64x64x32x32 : S_.BroadcastsInDim S4x64x64x32x32 (![] : Fin 0 → Fin S4x64x64x32x32.rank)
  reducesTo_S4x64x64x32x32_S_d0_1_2_3_4 : S4x64x64x32x32.ReducesTo [0, 1, 2, 3, 4] S_
  h_S_ : 0 < S_.numel
  bcast_S_S4x64x64x256x32 : S_.BroadcastsInDim S4x64x64x256x32 (![] : Fin 0 → Fin S4x64x64x256x32.rank)
  reducesTo_S4x64x64x256x32_S_d0_1_2_3_4 : S4x64x64x256x32.ReducesTo [0, 1, 2, 3, 4] S_
  bcast_S_S4x64x64x32x1 : S_.BroadcastsInDim S4x64x64x32x1 (![] : Fin 0 → Fin S4x64x64x32x1.rank)
  reducesTo_S4x64x64x32x1_S_d0_1_2_3_4 : S4x64x64x32x1.ReducesTo [0, 1, 2, 3, 4] S_

variable [Facts]

def fn {F : FTy → Type} [FloatOps F] (main_arg0 : FVec F S4x64x64x32x32 .f32) (main_arg1 : FVec F S4x64x64x256x32 .f32) (main_arg2 : FVec F S4x64x64x32x1 .f32) : IVec S_ 1 :=
  let main_v0 : FVec F S4x64x64x32x32 .f32 := Host.absf main_arg0
  let main_cst : FVec F S_ .f32 := constant S_ .f32 0x7F800000#32
  let main_v1 : FVec F S4x64x64x32x32 .f32 := broadcastInDim S4x64x64x32x32 ![] bcast_S_S4x64x64x32x32 main_cst
  let main_v2 : IVec S4x64x64x32x32 1 := cmpf .olt main_v0 main_v1
  let main_c : IVec S_ 1 := constantI S_ 1 1#1
  let main_v3 : IVec S_ 1 := (fun x v => Host.reduce IntOp.andi x v reducesTo_S4x64x64x32x32_S_d0_1_2_3_4 h_S_) main_v2 main_c
  let main_v4 : FVec F S4x64x64x256x32 .f32 := Host.absf main_arg1
  let main_cst_0 : FVec F S_ .f32 := constant S_ .f32 0x7F800000#32
  let main_v5 : FVec F S4x64x64x256x32 .f32 := broadcastInDim S4x64x64x256x32 ![] bcast_S_S4x64x64x256x32 main_cst_0
  let main_v6 : IVec S4x64x64x256x32 1 := cmpf .olt main_v4 main_v5
  let main_c_1 : IVec S_ 1 := constantI S_ 1 1#1
  let main_v7 : IVec S_ 1 := (fun x v => Host.reduce IntOp.andi x v reducesTo_S4x64x64x256x32_S_d0_1_2_3_4 h_S_) main_v6 main_c_1
  let main_v8 : IVec S_ 1 := andi main_v3 main_v7
  let main_v9 : FVec F S4x64x64x32x1 .f32 := Host.absf main_arg2
  let main_cst_2 : FVec F S_ .f32 := constant S_ .f32 0x7F800000#32
  let main_v10 : FVec F S4x64x64x32x1 .f32 := broadcastInDim S4x64x64x32x1 ![] bcast_S_S4x64x64x32x1 main_cst_2
  let main_v11 : IVec S4x64x64x32x1 1 := cmpf .olt main_v9 main_v10
  let main_c_3 : IVec S_ 1 := constantI S_ 1 1#1
  let main_v12 : IVec S_ 1 := (fun x v => Host.reduce IntOp.andi x v reducesTo_S4x64x64x32x1_S_d0_1_2_3_4 h_S_) main_v11 main_c_3
  let main_v13 : IVec S_ 1 := andi main_v8 main_v12
  main_v13
-- ==== Kernel.lean ====
abbrev S4x64x64x32x32 : Shape := ⟨5, ![4, 64, 64, 32, 32]⟩
abbrev S4x64x64x256x32 : Shape := ⟨5, ![4, 64, 64, 256, 32]⟩
abbrev S4x64x64x32x1 : Shape := ⟨5, ![4, 64, 64, 32, 1]⟩
abbrev S16384x32x32 : Shape := ⟨3, ![16384, 32, 32]⟩
abbrev S16384x256x32 : Shape := ⟨3, ![16384, 256, 32]⟩
abbrev S16384x32 : Shape := ⟨2, ![16384, 32]⟩
abbrev S16384x256 : Shape := ⟨2, ![16384, 256]⟩
abbrev S64x32x32 : Shape := ⟨3, ![64, 32, 32]⟩
abbrev S64x32 : Shape := ⟨2, ![64, 32]⟩
abbrev S64x256x32 : Shape := ⟨3, ![64, 256, 32]⟩
abbrev S64x256 : Shape := ⟨2, ![64, 256]⟩
abbrev S64x1x32 : Shape := ⟨3, ![64, 1, 32]⟩
abbrev S64 : Shape := ⟨1, ![64]⟩
abbrev S64x1 : Shape := ⟨2, ![64, 1]⟩
abbrev S64x1x256 : Shape := ⟨3, ![64, 1, 256]⟩
abbrev S4x64x64x256 : Shape := ⟨4, ![4, 64, 64, 256]⟩
abbrev S4x256x64x64 : Shape := ⟨4, ![4, 256, 64, 64]⟩

abbrev nBuf : Space → Nat
  | .hbm => 9
  | .vmem => 8
  | .smem => 0
  | _ => 0

abbrev bufTy : (tb : Table) → Fin (tcTables nBuf tb) → BufTy
  | .hbm, ⟨0, _⟩ => ⟨S4x64x64x32x32, .f32⟩
  | .hbm, ⟨1, _⟩ => ⟨S4x64x64x256x32, .f32⟩
  | .hbm, ⟨2, _⟩ => ⟨S4x64x64x32x1, .f32⟩
  | .hbm, ⟨3, _⟩ => ⟨S16384x32x32, .f32⟩
  | .hbm, ⟨4, _⟩ => ⟨S16384x256x32, .f32⟩
  | .hbm, ⟨5, _⟩ => ⟨S16384x32, .f32⟩
  | .hbm, ⟨6, _⟩ => ⟨S16384x256, .f32⟩
  | .hbm, ⟨7, _⟩ => ⟨S4x64x64x256, .f32⟩
  | .hbm, ⟨8, _⟩ => ⟨S4x256x64x64, .f32⟩
  | .local _ .vmem, ⟨0, _⟩ => ⟨S64x32x32, .f32⟩
  | .local _ .vmem, ⟨1, _⟩ => ⟨S64x32x32, .f32⟩
  | .local _ .vmem, ⟨2, _⟩ => ⟨S64x32, .f32⟩
  | .local _ .vmem, ⟨3, _⟩ => ⟨S64x32, .f32⟩
  | .local _ .vmem, ⟨4, _⟩ => ⟨S64x256x32, .f32⟩
  | .local _ .vmem, ⟨5, _⟩ => ⟨S64x256x32, .f32⟩
  | .local _ .vmem, ⟨6, _⟩ => ⟨S64x256, .f32⟩
  | .local _ .vmem, ⟨7, _⟩ => ⟨S64x256, .f32⟩
  | _, _ => ⟨S4x64x64x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![256], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x32x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x256x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S4x64x64x32x32_S16384x32x32 : S4x64x64x32x32.ShapeCasts S16384x32x32
  shapeCasts_S4x64x64x256x32_S16384x256x32 : S4x64x64x256x32.ShapeCasts S16384x256x32
  shapeCasts_S4x64x64x32x1_S16384x32 : S4x64x64x32x1.ShapeCasts S16384x32
  inb_S64x32x32_S64x32x32_0_0_0 : ∀ a, (![0, 0, 0] : Fin 3 → Nat) a + S64x32x32.size a ≤ S64x32x32.size a
  h_S64x32x32 : 0 < S64x32x32.numel
  shapeCasts_S64x32x32_S64x32x32 : S64x32x32.ShapeCasts S64x32x32
  inb_S64x32_S64x32_0_0 : ∀ a, (![0, 0] : Fin 2 → Nat) a + S64x32.size a ≤ S64x32.size a
  h_S64x32 : 0 < S64x32.numel
  shapeCasts_S64x32_S64x32 : S64x32.ShapeCasts S64x32
  inb_S64x256x32_S64x256x32_0_0_0 : ∀ a, (![0, 0, 0] : Fin 3 → Nat) a + S64x256x32.size a ≤ S64x256x32.size a
  h_S64x256x32 : 0 < S64x256x32.numel
  shapeCasts_S64x256x32_S64x256x32 : S64x256x32.ShapeCasts S64x256x32
  shapeCasts_S64x32_S64x1x32 : S64x32.ShapeCasts S64x1x32
  broadcasts_S64x1x32_S64x32x32 : S64x1x32.Broadcasts S64x32x32
  reduces_S64x32x32_S64x32 : S64x32x32.Reduces [2] S64x32
  reduces_S64x32_S64 : S64x32.Reduces [1] S64
  shapeCasts_S64_S64x1 : S64.ShapeCasts S64x1
  broadcasts_S64x1_S64x32 : S64x1.Broadcasts S64x32
  shapeCasts_S64x1x256_S64x256 : S64x1x256.ShapeCasts S64x256
  inb_S64x256_S64x256_0_0 : ∀ a, (![0, 0] : Fin 2 → Nat) a + S64x256.size a ≤ S64x256.size a
  h_S64x256 : 0 < S64x256.numel
  shapeCasts_S16384x256_S4x64x64x256 : S16384x256.ShapeCasts S4x64x64x256
  transposes_S4x64x64x256_S4x256x64x64_0_3_1_2 : S4x64x64x256.Transposes [0, 3, 1, 2] S4x256x64x64
  dot_S64x1x32_S64x256x32_S64x1x256_2_2_1_1_0_0_wf : DotDims.WF S64x1x32 S64x256x32 S64x1x256 [2] [2] [1] [1] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x32x32.size a ≤ S16384x32x32.size a
  hwx0_0 : ∀ i : grid0.Coords, EltTy.bits .f32 = 32 ∨ (Rect.block (s := S16384x32x32) S64x32x32.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S64x32.size a ≤ S16384x32.size a
  hwx0_1 : ∀ i : grid0.Coords, EltTy.bits .f32 = 32 ∨ (Rect.block (s := S16384x32) S64x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S64x256x32.size a ≤ S16384x256x32.size a
  hwx0_2 : ∀ i : grid0.Coords, EltTy.bits .f32 = 32 ∨ (Rect.block (s := S16384x256x32) S64x256x32.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S64x256.size a ≤ S16384x256.size a
  hwx0_3 : ∀ i : grid0.Coords, EltTy.bits .f32 = 32 ∨ (Rect.block (s := S16384x256) S64x256.size (cc0_transform_3 i) (hinb0_3 i)).WholeWords (EltTy.packing .f32)

variable [Facts₀]

def dot_S64x1x32_S64x256x32_S64x1x256_2_2_1_1_0_0 : DotDims S64x1x32 S64x256x32 S64x1x256 where
  lhsContracting := [2]
  rhsContracting := [2]
  lhsNonContracting := [1]
  rhsNonContracting := [1]
  lhsBatch := [0]
  rhsBatch := [0]
  wf := dot_S64x1x32_S64x256x32_S64x1x256_2_2_1_1_0_0_wf

abbrev win0_0 : Pipeline.Window sig grid0 :=
  Pipeline.Window.ofSpec (Memref.whole main_v0) S64x32x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S64x32.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S64x256x32.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S64x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4x64x64x32x32 : Shape := ⟨5, ![4, 64, 64, 32, 32]⟩
abbrev S4x64x64x256x32 : Shape := ⟨5, ![4, 64, 64, 256, 32]⟩
abbrev S4x64x64x32x1 : Shape := ⟨5, ![4, 64, 64, 32, 1]⟩
abbrev S_ : Shape := ⟨0, ![]⟩
abbrev S4x64x64x1 : Shape := ⟨4, ![4, 64, 64, 1]⟩
abbrev S4x64x64x1x1 : Shape := ⟨5, ![4, 64, 64, 1, 1]⟩
abbrev S4x64x64x256x1 : Shape := ⟨5, ![4, 64, 64, 256, 1]⟩
abbrev S4x64x64x256 : Shape := ⟨4, ![4, 64, 64, 256]⟩
abbrev S4x256x64x64 : Shape := ⟨4, ![4, 256, 64, 64]⟩

abbrev nBuf : Space → Nat
  | .hbm => 24
  | .vmem => 0
  | .smem => 0
  | _ => 0

abbrev bufTy : (tb : Table) → Fin (tcTables nBuf tb) → BufTy
  | .hbm, ⟨0, _⟩ => ⟨S4x64x64x32x32, .f32⟩
  | .hbm, ⟨1, _⟩ => ⟨S4x64x64x256x32, .f32⟩
  | .hbm, ⟨2, _⟩ => ⟨S4x64x64x32x1, .f32⟩
  | .hbm, ⟨3, _⟩ => ⟨S_, .f32⟩
  | .hbm, ⟨4, _⟩ => ⟨S4x64x64x32x32, .f32⟩
  | .hbm, ⟨5, _⟩ => ⟨S4x64x64x32x32, .f32⟩
  | .hbm, ⟨6, _⟩ => ⟨S4x64x64x32x1, .f32⟩
  | .hbm, ⟨7, _⟩ => ⟨S_, .f32⟩
  | .hbm, ⟨8, _⟩ => ⟨S4x64x64x1, .f32⟩
  | .hbm, ⟨9, _⟩ => ⟨S_, .f32⟩
  | .hbm, ⟨10, _⟩ => ⟨S4x64x64x1, .f32⟩
  | .hbm, ⟨11, _⟩ => ⟨S4x64x64x1, .f32⟩
  | .hbm, ⟨12, _⟩ => ⟨S4x64x64x1x1, .f32⟩
  | .hbm, ⟨13, _⟩ => ⟨S4x64x64x32x1, .f32⟩
  | .hbm, ⟨14, _⟩ => ⟨S4x64x64x32x1, .f32⟩
  | .hbm, ⟨15, _⟩ => ⟨S4x64x64x32x1, .f32⟩
  | .hbm, ⟨16, _⟩ => ⟨S_, .f32⟩
  | .hbm, ⟨17, _⟩ => ⟨S4x64x64x1, .f32⟩
  | .hbm, ⟨18, _⟩ => ⟨S4x64x64x1x1, .f32⟩
  | .hbm, ⟨19, _⟩ => ⟨S4x64x64x32x1, .f32⟩
  | .hbm, ⟨20, _⟩ => ⟨S4x64x64x32x1, .f32⟩
  | .hbm, ⟨21, _⟩ => ⟨S4x64x64x256x1, .f32⟩
  | .hbm, ⟨22, _⟩ => ⟨S4x64x64x256, .f32⟩
  | .hbm, ⟨23, _⟩ => ⟨S4x256x64x64, .f32⟩
  | _, _ => ⟨S4x64x64x32x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]

class Facts₀ : Prop where
  bcast_S_S4x64x64x32x32 : S_.BroadcastsInDim S4x64x64x32x32 (![] : Fin 0 → Fin S4x64x64x32x32.rank)
  reducesTo_S4x64x64x32x1_S4x64x64x1_d3 : S4x64x64x32x1.ReducesTo [3] S4x64x64x1
  h_S_ : 0 < S_.numel
  bcast_S_S4x64x64x1 : S_.BroadcastsInDim S4x64x64x1 (![] : Fin 0 → Fin S4x64x64x1.rank)
  bcast_S4x64x64x1_S4x64x64x1x1_0_1_2_4 : S4x64x64x1.BroadcastsInDim S4x64x64x1x1 (![0, 1, 2, 4] : Fin 4 → Fin S4x64x64x1x1.rank)
  bcast_S4x64x64x1x1_S4x64x64x32x1_0_1_2_3_4 : S4x64x64x1x1.BroadcastsInDim S4x64x64x32x1 (![0, 1, 2, 3, 4] : Fin 5 → Fin S4x64x64x32x1.rank)
  shapeCasts_S4x64x64x256x1_S4x64x64x256 : S4x64x64x256x1.ShapeCasts S4x64x64x256
  transposes_S4x64x64x256_S4x256x64x64_0_3_1_2 : S4x64x64x256.Transposes [0, 3, 1, 2] S4x256x64x64
  dot_S4x64x64x32x32_S4x64x64x32x1_S4x64x64x32x1_4_3_3_4_012_012_wf : DotDims.WF S4x64x64x32x32 S4x64x64x32x1 S4x64x64x32x1 [4] [3] [3] [4] [0, 1, 2] [0, 1, 2]
  dot_S4x64x64x256x32_S4x64x64x32x1_S4x64x64x256x1_4_3_3_4_012_012_wf : DotDims.WF S4x64x64x256x32 S4x64x64x32x1 S4x64x64x256x1 [4] [3] [3] [4] [0, 1, 2] [0, 1, 2]

variable [Facts₀]

def dot_S4x64x64x32x32_S4x64x64x32x1_S4x64x64x32x1_4_3_3_4_012_012 : DotDims S4x64x64x32x32 S4x64x64x32x1 S4x64x64x32x1 where
  lhsContracting := [4]
  rhsContracting := [3]
  lhsNonContracting := [3]
  rhsNonContracting := [4]
  lhsBatch := [0, 1, 2]
  rhsBatch := [0, 1, 2]
  wf := dot_S4x64x64x32x32_S4x64x64x32x1_S4x64x64x32x1_4_3_3_4_012_012_wf
def dot_S4x64x64x256x32_S4x64x64x32x1_S4x64x64x256x1_4_3_3_4_012_012 : DotDims S4x64x64x256x32 S4x64x64x32x1 S4x64x64x256x1 where
  lhsContracting := [4]
  rhsContracting := [3]
  lhsNonContracting := [3]
  rhsNonContracting := [4]
  lhsBatch := [0, 1, 2]
  rhsBatch := [0, 1, 2]
  wf := dot_S4x64x64x256x32_S4x64x64x32x1_S4x64x64x256x1_4_3_3_4_012_012_wf

class Facts : Prop extends Facts₀ where

variable [Facts]
-- ==== Proof.FiniteInputs.lean ====
/-
  From the precondition to "q and k are real-valued".

  The precondition takes, for each of the three arrays, the absolute value of every element, compares it strictly below
  the word 0x7F800000 (+∞), and folds the resulting bits with "and" over all axes starting from true; the three folds
  are then and-ed. If the result is true, every one of the folded bits is true, so every element x of each array has
  max x (−x) < +∞ on the extended reals. Neither +∞ nor −∞ satisfies this (for both, max x (−x) = +∞), so x is a real.
-/
import proofs.«126113_j29850022707608_2_alg».proof.Proof.Gen.Pre_finite_inputs
import Idealize.ShloMosaic.Lib.ReduceAll
import Idealize.ShloMosaic.Lib.ValueIdx
import Idealize.ShloMosaic.PureOps.Ideal.Laws

noncomputable section

open Idealize.ShloMosaic Idealize.ShloMosaic.ValueIdx

namespace Cert.Attn.Finite

/-- The scalar shape has one index: there is no axis to give a coordinate on. -/
instance : Subsingleton Cert.Pre_finite_inputs.S_.Idx := ⟨fun _ _ => funext fun d => d.elim0⟩

/-- The word 0x7F800000 denotes +∞: exponent field all ones, significand zero, sign clear. -/
theorem ofBits_pos_inf : Ideal.ofBits .f32 0x7F800000#32 = (⊤ : EReal) := by
  simp [Ideal.ofBits, Ideal.ieee]

/-- An extended real whose absolute value max x (−x) compares strictly below +∞ is a real:
    at x = +∞ the maximum is +∞, and at x = −∞ it is −(−∞) = +∞, so neither is strictly below +∞. -/
theorem real_of_abs_lt_inf (x : EReal)
    (hx : Ideal.cmp .olt (max x (-x)) (Ideal.ofBits .f32 0x7F800000#32) = 1#1) : ∃ r : ℝ, x = (r : EReal) := by
  rw [ofBits_pos_inf] at hx
  have hlt : max x (-x) < ⊤ := by
    by_contra hn
    simp [Ideal.cmp, hn] at hx
  induction x using EReal.rec with
  | bot => simp at hlt
  | coe r => exact ⟨r, rfl⟩
  | top => simp at hlt

theorem finite_of_pre (q : FVec Ideal Cert.Pre_finite_inputs.S4x64x64x32x32 .f32) (v : FVec Ideal Cert.Pre_finite_inputs.S4x64x64x256x32 .f32)
    (k : FVec Ideal Cert.Pre_finite_inputs.S4x64x64x32x1 .f32)
    (h : Cert.Pre_finite_inputs.fn (F := Ideal) q v k = fun _ => 1#1) :
    (∀ i, ∃ r : ℝ, q i = (r : EReal)) ∧ (∀ i, ∃ r : ℝ, k i = (r : EReal)) := by
  -- the one bit of the result, as the and of the three folds
  have h0 := congrFun h ValueIdx.ix0
  dsimp only [Cert.Pre_finite_inputs.fn] at h0
  obtain ⟨h12, h3⟩ := IntOp.andi_eq_one.1 h0
  obtain ⟨h1, _⟩ := IntOp.andi_eq_one.1 h12
  -- a fold by "and" over all axes that is true met a true bit at every index
  refine ⟨fun i => ?_, fun i => ?_⟩
  · exact real_of_abs_lt_inf (q i) (Host.reduce_andi_all _ _ _ _ _ h1 i)
  · exact real_of_abs_lt_inf (k i) (Host.reduce_andi_all _ _ _ _ _ h3 i)

end Cert.Attn.Finite

end
-- ==== Proof.Spec.lean ====
/-
  The mathematics of this certificate, stated once, over no program.

  At each of the 4·64·64 positions (b, w, h) there are 32 slots m, each with a 32-vector q[m, ·], one 32-vector k and,
  for each of 256 channels c, a 32-vector v[c, ·]. The result at (b, c, w, h) is the softmax-weighted mean

      out[c] = Σ_m soft(l)_m · v[c, m],     l_m = (Σ_d q[m, d] · k[d]) · (1/8),
      soft(l)_m = exp(l_m − max l) / Σ_m' exp(l_m' − max l),

  every operation the exact one on the extended reals, the maximum taken from −∞. The two programs compute this
  at every position; they differ in where the factor 1/8 sits (on the sum, or on each q[m, d] as a quotient by 8),
  in the order of the two factors of the last product, and in how the positions are laid out in memory.
-/
import Idealize.ShloMosaic.PureOps.Ideal
import Idealize.ShloMosaic.PureOps.Ideal.Laws
import Idealize.ShloMosaic.Lib.ValueIdx

noncomputable section

namespace Cert.Attn

open Idealize.ShloMosaic Idealize.ShloMosaic.ValueIdx

/-! ## One position -/

/-- The largest of 32 logits: the fold of `max` from −∞ (the word `0xFF800000`). -/
def rowMax (l : Fin 32 → EReal) : EReal :=
  (Finset.univ : Finset (Fin 32)).fold max (Ideal.ofBits .f32 0xFF800000#32) l

/-- The softmax weight of slot `m` among 32 logits, shifted by their maximum. -/
def soft (l : Fin 32 → EReal) (m : Fin 32) : EReal :=
  Ideal.div (Ideal.exp (l m - rowMax l)) (∑ m' : Fin 32, Ideal.exp (l m' - rowMax l))

/-- The logit of slot `m`: the inner product of `q[m, ·]` with `k`, times the word `0x3E000000` (one eighth). -/
def logit (qp : Fin 32 → Fin 32 → EReal) (kp : Fin 32 → EReal) (m : Fin 32) : EReal :=
  (∑ d : Fin 32, qp m d * kp d) * Ideal.ofBits .f32 0x3E000000#32

/-- The weighted mean of one channel's 32 values under the softmax of the logits. -/
def mix (l : Fin 32 → EReal) (vp : Fin 32 → EReal) : EReal :=
  ∑ m : Fin 32, soft l m * vp m

/-! ## The whole arrays, as the programs' arguments hold them -/

abbrev SQ : Shape := ⟨5, ![4, 64, 64, 32, 32]⟩
abbrev SV : Shape := ⟨5, ![4, 64, 64, 256, 32]⟩
abbrev SK : Shape := ⟨5, ![4, 64, 64, 32, 1]⟩
abbrev SO : Shape := ⟨4, ![4, 256, 64, 64]⟩

/-- The result at batch `b`, channel `c`, position `(w, h)`. -/
def outAt (q : SQ.Idx → EReal) (v : SV.Idx → EReal) (k : SK.Idx → EReal) (b : Fin 4) (c : Fin 256) (w h : Fin 64) : EReal :=
  mix (logit (fun m d => q (ix5 b w h m d)) (fun d => k (ix5 b w h d (0 : Fin 1)))) (fun m => v (ix5 b w h c m))

/-- The result array `[4, 256, 64, 64]` as one function of the three argument arrays. -/
def G (q : SQ.Idx → EReal) (v : SV.Idx → EReal) (k : SK.Idx → EReal) : SO.Idx → EReal :=
  fun i => outAt q v k (i 0) (i 1) (i 2) (i 3)

theorem G_ix4 (q : SQ.Idx → EReal) (v : SV.Idx → EReal) (k : SK.Idx → EReal) (b : Fin 4) (c : Fin 256) (w h : Fin 64) :
    G q v k (ix4 b c w h) = outAt q v k b c w h := rfl

/-! ## The same with the 16384 positions on one axis, as the kernel's windows see them -/

abbrev SQf : Shape := ⟨3, ![16384, 32, 32]⟩
abbrev SKf : Shape := ⟨2, ![16384, 32]⟩
abbrev SVf : Shape := ⟨3, ![16384, 256, 32]⟩
abbrev SOf : Shape := ⟨2, ![16384, 256]⟩

/-- The result at position `n` of 16384 and channel `c`. -/
def flatAt (qf : SQf.Idx → EReal) (kf : SKf.Idx → EReal) (vf : SVf.Idx → EReal) (n : Fin 16384) (c : Fin 256) : EReal :=
  mix (logit (fun m d => qf (ix3 n m d)) (fun d => kf (ix2 n d))) (fun m => vf (ix3 n c m))

/-- The array `[16384, 256]` the kernel's region writes, as one function of the three arrays it reads. -/
def Gflat (qf : SQf.Idx → EReal) (kf : SKf.Idx → EReal) (vf : SVf.Idx → EReal) : SOf.Idx → EReal :=
  fun i => flatAt qf kf vf (i 0) (i 1)

theorem Gflat_ix2 (qf : SQf.Idx → EReal) (kf : SKf.Idx → EReal) (vf : SVf.Idx → EReal) (n : Fin 16384) (c : Fin 256) :
    Gflat qf kf vf (ix2 n c) = flatAt qf kf vf n c := rfl

/-- Position `(b, w, h)` on the one axis: row-major, `(b · 64 + w) · 64 + h`. -/
def pos (b : Fin 4) (w h : Fin 64) : Fin 16384 :=
  ⟨(b.val * 64 + w.val) * 64 + h.val, by have := b.isLt; have := w.isLt; have := h.isLt; omega⟩

theorem pos_val (b : Fin 4) (w h : Fin 64) : (pos b w h).val = (b.val * 64 + w.val) * 64 + h.val := rfl

end Cert.Attn

end
-- ==== Proof.HostLayout.lean ====
/-
  The host's reshapes and its final transpose, read at an index.

  A reshape keeps the row-major position of every element. The five-axis arrays [4, 64, 64, ·, ·] and the arrays
  with the 4·64·64 = 16384 positions on one leading axis therefore hold the same element at (b, w, h, ·, ·) and at
  (pos b w h, ·, ·), where pos b w h = (b·64 + w)·64 + h. The result [16384, 256] is reshaped to [4, 64, 64, 256] and
  its channel axis is then moved to second place, so the element at (b, c, w, h) of the final array is the element at
  (pos b w h, c) of the flat one. The shape facts the operations carry are hypotheses here; no program is imported.
-/
import proofs.«126113_j29850022707608_2_alg».proof.Proof.Spec
import Idealize.ShloMosaic.Lib.Pipeline.Value
import Idealize.ShloMosaic.Lib.ValueIdx
import Idealize.ShloMosaic.Lib.ValueLayout

noncomputable section

open Idealize.ShloMosaic Idealize.ShloMosaic.ValueIdx

namespace Cert.Attn.Layout

open Cert.Attn

/-- q: the element of the flat array at (pos b w h, m, d) is the element of the five-axis array at (b, w, h, m, d):
    both sit at row-major position (((b·64 + w)·64 + h)·32 + m)·32 + d. -/
theorem castQ (x : FVec Ideal SQ .f32) (hc : SQ.ShapeCasts SQf) (b : Fin 4) (w h : Fin 64) (m d : Fin 32) :
    shapeCast SQf x hc (ix3 (pos b w h) m d) = x (ix5 b w h m d) := by
  refine shapeCast_apply x hc (ix3 (pos b w h) m d) (ix5 b w h m d) ?_
  rewrite [Shape.rowMajor_val_five, Shape.rowMajor_val_three]
  show (((b.val * 64 + w.val) * 64 + h.val) * 32 + m.val) * 32 + d.val = ((pos b w h).val * 32 + m.val) * 32 + d.val
  rw [pos_val]

/-- v: the same with 256 channels on the fourth axis: position (((b·64 + w)·64 + h)·256 + c)·32 + m on both sides. -/
theorem castV (x : FVec Ideal SV .f32) (hc : SV.ShapeCasts SVf) (b : Fin 4) (w h : Fin 64) (c : Fin 256) (m : Fin 32) :
    shapeCast SVf x hc (ix3 (pos b w h) c m) = x (ix5 b w h c m) := by
  refine shapeCast_apply x hc (ix3 (pos b w h) c m) (ix5 b w h c m) ?_
  rewrite [Shape.rowMajor_val_five, Shape.rowMajor_val_three]
  show (((b.val * 64 + w.val) * 64 + h.val) * 256 + c.val) * 32 + m.val = ((pos b w h).val * 256 + c.val) * 32 + m.val
  rw [pos_val]

/-- k: the trailing axis of size one contributes 0 to the position: (((b·64 + w)·64 + h)·32 + d)·1 + 0 on the left,
    ((b·64 + w)·64 + h)·32 + d on the right. -/
theorem castK (x : FVec Ideal SK .f32) (hc : SK.ShapeCasts SKf) (b : Fin 4) (w h : Fin 64) (d : Fin 32) :
    shapeCast SKf x hc (ix2 (pos b w h) d) = x (ix5 b w h d (0 : Fin 1)) := by
  refine shapeCast_apply x hc (ix2 (pos b w h) d) (ix5 b w h d (0 : Fin 1)) ?_
  rewrite [Shape.rowMajor_val_five, Shape.rowMajor_val_two]
  show (((b.val * 64 + w.val) * 64 + h.val) * 32 + d.val) * 1 + 0 = (pos b w h).val * 32 + d.val
  rw [pos_val]
  omega

/-- The result with its positions spread back over three axes, before the channel axis is moved. -/
abbrev SO4 : Shape := ⟨4, ![4, 64, 64, 256]⟩

/-- The final array at (b, c, w, h): the transpose with permutation [0, 3, 1, 2] reads its operand at (b, w, h, c)
    (result axis 1 is source axis 3, result axes 2 and 3 are source axes 1 and 2), and the reshape reads the flat
    array at the same row-major position ((b·64 + w)·64 + h)·256 + c, which is (pos b w h, c). -/
theorem tail_apply (y : FVec Ideal SOf .f32) (hc : SOf.ShapeCasts SO4) (ht : SO4.Transposes [0, 3, 1, 2] SO)
    (b : Fin 4) (c : Fin 256) (w h : Fin 64) :
    transpose SO [0, 3, 1, 2] (shapeCast SO4 y hc) ht (ix4 b c w h) = y (ix2 (pos b w h) c) := by
  refine (transpose_apply [0, 3, 1, 2] (shapeCast SO4 y hc) ht (ix4 b c w h) (ix4 b w h c) (fun a => match a with
    | ⟨0, _⟩ => rfl
    | ⟨1, _⟩ => rfl
    | ⟨2, _⟩ => rfl
    | ⟨3, _⟩ => rfl)).trans ?_
  refine shapeCast_apply y hc (ix4 b w h c) (ix2 (pos b w h) c) ?_
  rewrite [Shape.rowMajor_val_two, Shape.rowMajor_val_four]
  show (pos b w h).val * 256 + c.val = ((b.val * 64 + w.val) * 64 + h.val) * 256 + c.val
  rw [pos_val]

end Cert.Attn.Layout

end
-- ==== Proof.LibUnitAxis.lean ====
/-
  Casts and broadcasts across a unit axis, read at an index, at any extents.

  A `keepdims` reduction leaves a unit axis behind, and a row-wise statistic is spread back over its row through one:
  a matrix `[a, b]` is viewed as `[a, 1, b]` and back, a vector `[a]` as the column `[a, 1]`, and a unit axis is
  broadcast over many. A cast keeps every element's row-major position, and a unit axis contributes nothing to it;
  a broadcast reads the operand at the same coordinates, except 0 on each unit axis. The five forms below are stated
  over the literal-size index constructors `ix1 … ix3`, so that they fire on indices built from coordinates.
-/
import Idealize.ShloMosaic.Lib.Pipeline.Value
import Idealize.ShloMosaic.Lib.ValueIdx
import Idealize.ShloMosaic.Lib.ValueLayout
noncomputable section
open Idealize.ShloMosaic Idealize.ShloMosaic.ValueIdx
namespace Cert.Lib.UnitAxis

/-! ## The five forms

A matrix viewed with a unit middle axis and back, a vector viewed as one column, and a unit axis broadcast over
many. Each is a statement about row-major positions (a cast) or about which coordinates are kept (a broadcast). -/

section Layout
variable {α : Type}

/-- An `[a, b]` array cast to `[a, 1, b]` reads, at `(i, u, j)`, the operand at `(i, j)`. -/
theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

/-- An `[a, 1, b]` array cast to `[a, b]` reads, at `(i, j)`, the operand at `(i, 0, j)`. -/
theorem shapeCast_a1b_ab_apply {a b : ℕ} (x : (⟨3, ![a, 1, b]⟩ : Shape).Idx → α)
    (h : (⟨3, ![a, 1, b]⟩ : Shape).ShapeCasts ⟨2, ![a, b]⟩) (i : Fin a) (j : Fin b) :
    shapeCast ⟨2, ![a, b]⟩ x h (ix2 i j) = x (ix3 i (0 : Fin 1) j) :=
  shapeCast_apply x h _ _ (by
    rw [Shape.rowMajor_val_three, Shape.rowMajor_val_two]
    show (i.val * 1 + 0) * b + j.val = i.val * b + j.val
    rw [Nat.mul_one, Nat.add_zero])

/-- An `[a]` array cast to the column `[a, 1]` reads, at `(i, u)`, the operand at `i`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a, 1, b]` array broadcast to `[a, m, b]` reads, at `(p, q, c)`, the operand at `(p, 0, c)`. -/
theorem broadcastTo_a1b_amb_apply {a m b : ℕ} (v : (⟨3, ![a, 1, b]⟩ : Shape).Idx → α)
    (h : (⟨3, ![a, 1, b]⟩ : Shape).Broadcasts ⟨3, ![a, m, b]⟩) (p : Fin a) (q : Fin m) (c : Fin b) :
    broadcastTo ⟨3, ![a, m, b]⟩ v h (ix3 p q c) = v (ix3 p (0 : Fin 1) c) := by
  refine broadcastTo_apply v h (ix3 p q c) (ix3 p (0 : Fin 1) c) fun ax => ?_
  match ax with
  | ⟨0, _⟩ =>
    show p.val = if a = 1 then 0 else p.val
    split
    · have := p.isLt; omega
    · rfl
  | ⟨1, _⟩ => rfl
  | ⟨2, _⟩ =>
    show c.val = if b = 1 then 0 else c.val
    split
    · have := c.isLt; omega
    · rfl

end Layout

end Cert.Lib.UnitAxis

end
-- ==== Proof.KernelPayload.lean ====
/-
  The value the kernel body stores, read at one index.

  The body computes, for each of its 64 positions p: the 32 logits l_m = (Σ_d q[p, m, d] · k[p, d]) · w (w the scale
  word), their softmax (subtract the row maximum taken from −∞, exponentiate, divide by the row sum), and for each of
  the 256 channels c the sum Σ_m soft(l)_m · v[p, c, m]. Every step is either pointwise, a re-indexing with a unit
  axis, a reduction over one axis, or a batched product contracting one axis; each is read at an index below, and the
  readings compose to `Cert.Attn.mix (Cert.Attn.logit …) …` with nothing reordered.
-/
import proofs.«126113_j29850022707608_2_alg».proof.Proof.Spec
import proofs.«126113_j29850022707608_2_alg».proof.Proof.Gen.KernelIdeal.Skeleton
import proofs.«126113_j29850022707608_2_alg».proof.Proof.LibUnitAxis
import Idealize.ShloMosaic.Lib.Pipeline.Value
import Idealize.ShloMosaic.Lib.ValueIdx
import Idealize.ShloMosaic.Lib.ValueLayout
import Idealize.ShloMosaic.PureOps.Ideal.Laws
noncomputable section
open Idealize.ShloMosaic Idealize.ShloMosaic.ValueIdx
namespace Cert.KernelIdeal.PayValue
open Cert.KernelIdeal Cert.KernelIdeal.Gen Cert.Lib.UnitAxis

/-! ## The three reductions of the body, each read at an index

The lane sum over `d`, the row maximum from −∞ and the row sum over the 32 slots: each reduction over one axis is
the sum, or the fold of `max`, over that axis's coordinate with the other coordinates held. -/

section Reductions

/-- The sum over the last axis of a `[64, 32, 32]` vector at `(p, m)` is the sum over `d` of the entries `(p, m, d)`. -/
theorem laneSum_apply (src : FVec Ideal S64x32x32 .f32) (h : S64x32x32.Reduces [2] S64x32) (hφ : FKind.Formats .f32)
    (hacc : (0x00000000#32 : BitVec 32) = FKind.add.neutral .f32 hφ) (p : Fin 64) (m : Fin 32) :
    multiReduction .add [2] S64x32 src 0x00000000#32 h hφ hacc (ix2 p m) = ∑ d : Fin 32, src (ix3 p m d) := by
  refine (Ideal.multiReduction_add_single src _ h hφ hacc (ix2 p m)).trans ?_
  refine Finset.sum_congr rfl fun d _ => congrArg src (funext fun a => Fin.ext ?_)
  match a with
  | ⟨0, _⟩ => rfl
  | ⟨1, _⟩ => rfl
  | ⟨2, _⟩ => rfl

/-- The sum over the slots of a `[64, 32]` vector at `p` is the sum over `m` of the entries `(p, m)`. -/
theorem rowSum_apply (src : FVec Ideal S64x32 .f32) (h : S64x32.Reduces [1] S64) (hφ : FKind.Formats .f32)
    (hacc : (0x00000000#32 : BitVec 32) = FKind.add.neutral .f32 hφ) (p : Fin 64) :
    multiReduction .add [1] S64 src 0x00000000#32 h hφ hacc (ix1 p) = ∑ m : Fin 32, src (ix2 p m) := by
  refine (Ideal.multiReduction_add_single src _ h hφ hacc (ix1 p)).trans ?_
  refine Finset.sum_congr rfl fun m _ => congrArg src (funext fun a => Fin.ext ?_)
  match a with
  | ⟨0, _⟩ => rfl
  | ⟨1, _⟩ => rfl

/-- The maximum over the slots of a `[64, 32]` vector at `p`, taken from −∞, is `rowMax` of row `p`. -/
theorem rowMax_apply (src : FVec Ideal S64x32 .f32) (h : S64x32.Reduces [1] S64) (hφ : FKind.Formats .f32)
    (hacc : (0xFF800000#32 : BitVec 32) = FKind.maximumf.neutral .f32 hφ) (p : Fin 64) :
    multiReduction .maximumf [1] S64 src 0xFF800000#32 h hφ hacc (ix1 p) = Cert.Attn.rowMax (fun m => src (ix2 p m)) := by
  refine (Ideal.multiReduction_maximumf_single src _ h hφ hacc (ix1 p)).trans ?_
  have hrow : (src ∘ h.lift (ix1 p)) = fun m : Fin 32 => src (ix2 p m) :=
    funext fun m => congrArg src (funext fun a => Fin.ext (by
      match a with
      | ⟨0, _⟩ => rfl
      | ⟨1, _⟩ => rfl))
  rw [hrow]
  rfl

/-- A per-row value `[64]`, viewed as a column and broadcast over the slots, reads the row's value at every slot. -/
theorem rowBroadcast_apply (r : FVec Ideal S64 .f32) (h1 : S64.ShapeCasts S64x1) (h2 : S64x1.Broadcasts S64x32)
    (p : Fin 64) (m : Fin 32) :
    broadcastTo S64x32 (shapeCast S64x1 r h1) h2 (ix2 p m) = r (ix1 p) :=
  (broadcastTo_a1_ab_apply _ h2 p m).trans (shapeCast_a_a1_apply r h1 p 0)

end Reductions

/-! ## The logits and their softmax, read at an index -/

section Softmax

/-- The product of `q` with `k` broadcast over the slots, at `(p, m, d)`, is `q[p, m, d] · k[p, d]`. -/
theorem qk_apply (q : FVec Ideal S64x32x32 .f32) (k : FVec Ideal S64x32 .f32)
    (h1 : S64x32x32.ShapeCasts S64x32x32) (h2 : S64x32.ShapeCasts S64x32) (h3 : S64x32.ShapeCasts S64x1x32)
    (h4 : S64x1x32.Broadcasts S64x32x32) (p : Fin 64) (m d : Fin 32) :
    mulf (shapeCast S64x32x32 q h1) (broadcastTo S64x32x32 (shapeCast S64x1x32 (shapeCast S64x32 k h2) h3) h4) (ix3 p m d)
      = q (ix3 p m d) * k (ix2 p d) := by
  rw [shapeCast_self q h1, shapeCast_self k h2]
  exact congrArg (q (ix3 p m d) * ·)
    ((broadcastTo_a1b_amb_apply _ h4 p m d).trans (shapeCast_ab_a1b_apply k h3 p 0 d))

/-- The scaled lane sum at `(p, m)` is the logit of slot `m` at position `p`. -/
theorem logit_apply (q : FVec Ideal S64x32x32 .f32) (k : FVec Ideal S64x32 .f32)
    (h1 : S64x32x32.ShapeCasts S64x32x32) (h2 : S64x32.ShapeCasts S64x32) (h3 : S64x32.ShapeCasts S64x1x32)
    (h4 : S64x1x32.Broadcasts S64x32x32) (h5 : S64x32x32.Reduces [2] S64x32) (hφ : FKind.Formats .f32)
    (hacc : (0x00000000#32 : BitVec 32) = FKind.add.neutral .f32 hφ) (p : Fin 64) (m : Fin 32) :
    mulf (multiReduction .add [2] S64x32
          (mulf (shapeCast S64x32x32 q h1) (broadcastTo S64x32x32 (shapeCast S64x1x32 (shapeCast S64x32 k h2) h3) h4))
          0x00000000#32 h5 hφ hacc)
        (broadcast S64x32 (FloatOps.ofBits (F := Ideal) .f32 0x3E000000#32)) (ix2 p m)
      = Cert.Attn.logit (fun m d => q (ix3 p m d)) (fun d => k (ix2 p d)) m := by
  refine (congrArg (· * Ideal.ofBits .f32 0x3E000000#32) (laneSum_apply _ h5 hφ hacc p m)).trans ?_
  unfold Cert.Attn.logit
  exact congrArg (· * Ideal.ofBits .f32 0x3E000000#32)
    (Finset.sum_congr rfl fun d _ => qk_apply q k h1 h2 h3 h4 p m d)

/-- The softmax the body computes from a `[64, 32]` vector `V` of logits: subtract the row maximum, exponentiate,
divide by the row sum. At `(p, m)` it is `soft` of row `p` at slot `m`. -/
theorem soft_apply (V : FVec Ideal S64x32 .f32) (l : Fin 64 → Fin 32 → EReal) (hV : ∀ p m, V (ix2 p m) = l p m)
    (h : S64x32.Reduces [1] S64) (h1 : S64.ShapeCasts S64x1) (h2 : S64x1.Broadcasts S64x32) (hφ : FKind.Formats .f32)
    (hmax : (0xFF800000#32 : BitVec 32) = FKind.maximumf.neutral .f32 hφ)
    (hadd : (0x00000000#32 : BitVec 32) = FKind.add.neutral .f32 hφ) (p : Fin 64) (m : Fin 32) :
    divf
        (exp (subf V (broadcastTo S64x32 (shapeCast S64x1 (multiReduction .maximumf [1] S64 V 0xFF800000#32 h hφ hmax) h1) h2)))
        (broadcastTo S64x32
          (shapeCast S64x1
            (multiReduction .add [1] S64
              (exp (subf V (broadcastTo S64x32 (shapeCast S64x1 (multiReduction .maximumf [1] S64 V 0xFF800000#32 h hφ hmax) h1) h2)))
              0x00000000#32 h hφ hadd) h1) h2) (ix2 p m)
      = Cert.Attn.soft (l p) m := by
  have hrow : (fun m' => V (ix2 p m')) = l p := funext fun m' => hV p m'
  have hE : ∀ m' : Fin 32,
      exp (subf V (broadcastTo S64x32 (shapeCast S64x1 (multiReduction .maximumf [1] S64 V 0xFF800000#32 h hφ hmax) h1) h2)) (ix2 p m')
        = Ideal.exp (l p m' - Cert.Attn.rowMax (l p)) := fun m' => by
    show Ideal.exp (V (ix2 p m') - broadcastTo S64x32 (shapeCast S64x1 (multiReduction .maximumf [1] S64 V 0xFF800000#32 h hφ hmax) h1) h2 (ix2 p m')) = _
    rw [rowBroadcast_apply _ h1 h2 p m', rowMax_apply V h hφ hmax p, hrow, hV p m']
  exact congrArg₂ Ideal.div (hE m)
    ((rowBroadcast_apply _ h1 h2 p m).trans
      ((rowSum_apply _ h hφ hadd p).trans (Finset.sum_congr rfl fun m' _ => hE m')))

end Softmax

/-! ## The batched product with the values, read at an index

The dimension numbers: batch axis 0 of both operands, the left operand's unit axis 1 and the right operand's
channel axis 1 kept, axis 2 of both contracted. At result index `(p, u, c)` and contraction coordinate `k` the
left operand is read at `(p, u, k)` and the right one at `(p, c, k)`. -/

section Dot

theorem lhs_dot_0 (i : S64x1x256.Idx) (q : dot_S64x1x32_S64x256x32_S64x1x256_2_2_1_1_0_0.contr.Idx) :
    (dot_S64x1x32_S64x256x32_S64x1x256_2_2_1_1_0_0.lhsIdx i q 0).val = (i 0).val := by
  unfold DotDims.lhsIdx
  rw [dif_pos (show (0 : Fin S64x1x32.rank) ∈ dot_S64x1x32_S64x256x32_S64x1x256_2_2_1_1_0_0.lhsBatch by decide)]
  rfl
theorem lhs_dot_1 (i : S64x1x256.Idx) (q : dot_S64x1x32_S64x256x32_S64x1x256_2_2_1_1_0_0.contr.Idx) :
    (dot_S64x1x32_S64x256x32_S64x1x256_2_2_1_1_0_0.lhsIdx i q 1).val = (i 1).val := by
  unfold DotDims.lhsIdx
  rw [dif_neg (show ¬(1 : Fin S64x1x32.rank) ∈ dot_S64x1x32_S64x256x32_S64x1x256_2_2_1_1_0_0.lhsBatch by decide),
    dif_pos (show (1 : Fin S64x1x32.rank) ∈ dot_S64x1x32_S64x256x32_S64x1x256_2_2_1_1_0_0.lhsNonContracting by decide)]
  rfl
theorem lhs_dot_2 (i : S64x1x256.Idx) (q : dot_S64x1x32_S64x256x32_S64x1x256_2_2_1_1_0_0.contr.Idx) :
    (dot_S64x1x32_S64x256x32_S64x1x256_2_2_1_1_0_0.lhsIdx i q 2).val = (q ⟨0, by decide⟩).val :=
  dot_S64x1x32_S64x256x32_S64x1x256_2_2_1_1_0_0.lhsIdx_val_of_single rfl i q
theorem rhs_dot_0 (i : S64x1x256.Idx) (q : dot_S64x1x32_S64x256x32_S64x1x256_2_2_1_1_0_0.contr.Idx) :
    (dot_S64x1x32_S64x256x32_S64x1x256_2_2_1_1_0_0.rhsIdx i q 0).val = (i 0).val := by
  unfold DotDims.rhsIdx
  rw [dif_pos (show (0 : Fin S64x256x32.rank) ∈ dot_S64x1x32_S64x256x32_S64x1x256_2_2_1_1_0_0.rhsBatch by decide)]
  rfl
theorem rhs_dot_1 (i : S64x1x256.Idx) (q : dot_S64x1x32_S64x256x32_S64x1x256_2_2_1_1_0_0.contr.Idx) :
    (dot_S64x1x32_S64x256x32_S64x1x256_2_2_1_1_0_0.rhsIdx i q 1).val = (i 2).val := by
  unfold DotDims.rhsIdx
  rw [dif_neg (show ¬(1 : Fin S64x256x32.rank) ∈ dot_S64x1x32_S64x256x32_S64x1x256_2_2_1_1_0_0.rhsBatch by decide),
    dif_pos (show (1 : Fin S64x256x32.rank) ∈ dot_S64x1x32_S64x256x32_S64x1x256_2_2_1_1_0_0.rhsNonContracting by decide)]
  rfl
theorem rhs_dot_2 (i : S64x1x256.Idx) (q : dot_S64x1x32_S64x256x32_S64x1x256_2_2_1_1_0_0.contr.Idx) :
    (dot_S64x1x32_S64x256x32_S64x1x256_2_2_1_1_0_0.rhsIdx i q 2).val = (q ⟨0, by decide⟩).val :=
  dot_S64x1x32_S64x256x32_S64x1x256_2_2_1_1_0_0.rhsIdx_val_of_single rfl i q

/-- The product into the zero accumulator at `(p, u, c)` is the sum over the 32 slots of the left operand at
`(p, u, m)` times the right operand at `(p, c, m)`. -/
theorem dot_apply (L : FVec Ideal S64x1x32 .f32) (R : FVec Ideal S64x256x32 .f32) (p : Fin 64) (u : Fin 1) (c : Fin 256) :
    matmul (F := Ideal) dot_S64x1x32_S64x256x32_S64x1x256_2_2_1_1_0_0 none L R (constant S64x1x256 .f32 0x00000000#32) (ix3 p u c)
      = ∑ m : Fin 32, L (ix3 p u m) * R (ix3 p c m) := by
  simp only [matmul]
  rw [Ideal.matmul_constant_zero_apply,
    ← Equiv.sum_comp (ValueIdx.contrEquiv1 dot_S64x1x32_S64x256x32_S64x1x256_2_2_1_1_0_0 32 rfl rfl).symm]
  refine Finset.sum_congr rfl fun k _ => ?_
  have hk := ValueIdx.contrEquiv1_symm_val dot_S64x1x32_S64x256x32_S64x1x256_2_2_1_1_0_0 32 rfl rfl k
  have el : dot_S64x1x32_S64x256x32_S64x1x256_2_2_1_1_0_0.lhsIdx (ix3 p u c)
      ((ValueIdx.contrEquiv1 dot_S64x1x32_S64x256x32_S64x1x256_2_2_1_1_0_0 32 rfl rfl).symm k) = ix3 p u k :=
    funext fun a => Fin.ext (by
      match a with
      | ⟨0, _⟩ => exact lhs_dot_0 _ _
      | ⟨1, _⟩ => exact lhs_dot_1 _ _
      | ⟨2, _⟩ => exact (lhs_dot_2 _ _).trans hk)
  have er : dot_S64x1x32_S64x256x32_S64x1x256_2_2_1_1_0_0.rhsIdx (ix3 p u c)
      ((ValueIdx.contrEquiv1 dot_S64x1x32_S64x256x32_S64x1x256_2_2_1_1_0_0 32 rfl rfl).symm k) = ix3 p c k :=
    funext fun a => Fin.ext (by
      match a with
      | ⟨0, _⟩ => exact rhs_dot_0 _ _
      | ⟨1, _⟩ => exact rhs_dot_1 _ _
      | ⟨2, _⟩ => exact (rhs_dot_2 _ _).trans hk)
  rw [el, er]

/-- The whole last stage: the weights viewed `[64, 1, 32]`, multiplied with the values, and the unit axis dropped.
At `(p, c)` it is the sum over the slots of the weight at `(p, m)` times the value at `(p, c, m)`. -/
theorem mix_apply (W : FVec Ideal S64x32 .f32) (X : FVec Ideal S64x256x32 .f32) (h1 : S64x32.ShapeCasts S64x1x32)
    (h2 : S64x256x32.ShapeCasts S64x256x32) (h3 : S64x1x256.ShapeCasts S64x256) (p : Fin 64) (c : Fin 256) :
    shapeCast S64x256
        (matmul (F := Ideal) dot_S64x1x32_S64x256x32_S64x1x256_2_2_1_1_0_0 none (shapeCast S64x1x32 W h1)
          (shapeCast S64x256x32 X h2) (constant S64x1x256 .f32 0x00000000#32)) h3 (ix2 p c)
      = ∑ m : Fin 32, W (ix2 p m) * X (ix3 p c m) := by
  rw [shapeCast_self X h2]
  refine (shapeCast_a1b_ab_apply _ h3 p c).trans ((dot_apply _ X p 0 c).trans ?_)
  exact Finset.sum_congr rfl fun m _ => congrArg (· * X (ix3 p c m)) (shapeCast_ab_a1b_apply W h1 p 0 m)

end Dot

/-! ## The stored value -/

/-- The value the body stores at `(p, c)`: the softmax-weighted mean of channel `c`'s 32 values at position `p`,
the weights the softmax of the 32 logits `(Σ_d q[p, m, d] · k[p, d])` times the word `0x3E000000`. -/
theorem pay_apply (x0 : Vec Ideal S64x32x32 .f32) (x1 : Vec Ideal S64x32 .f32) (x2 : Vec Ideal S64x256x32 .f32)
    (p : Fin 64) (c : Fin 256) :
    Gen.k0_pay1 (F := Ideal) x0 x1 x2 (ix2 p c)
      = Cert.Attn.mix (Cert.Attn.logit (fun m d => x0 (ix3 p m d)) (fun d => x1 (ix2 p d))) (fun m => x2 (ix3 p c m)) := by
  unfold Gen.k0_pay1
  refine (mix_apply _ x2 _ _ _ p c).trans ?_
  unfold Cert.Attn.mix
  refine Finset.sum_congr rfl fun m _ => congrArg (· * x2 (ix3 p c m)) ?_
  exact soft_apply _ (fun p => Cert.Attn.logit (fun m d => x0 (ix3 p m d)) (fun d => x1 (ix2 p d)))
    (fun p m => logit_apply x0 x1 _ _ _ _ _ _ _ p m) _ _ _ _ _ _ p m

end Cert.KernelIdeal.PayValue

end
-- ==== Proof.KernelBlocks.lean ====
/-
  From blocks to the array. The region's grid has 256 points; point `t` reads rows `64 t … 64 t + 63` of the three
  flattened arrays (q as [16384, 32, 32], k as [16384, 32], v as [16384, 256, 32]) and writes rows `64 t … 64 t + 63`
  of the [16384, 256] result. Row `p` of a block depends only on row `64 t + p` of each array, so what every point
  writes back is a block of ONE function of the whole arrays (`Cert.Attn.Gflat`), and since the 256 blocks tile the
  result array, the array ends holding that function.
-/
import proofs.«126113_j29850022707608_2_alg».proof.Proof.Spec
import proofs.«126113_j29850022707608_2_alg».proof.Proof.Gen.KernelIdeal.Frame
import proofs.«126113_j29850022707608_2_alg».proof.Proof.KernelPayload
import Idealize.ShloMosaic.Lib.Pipeline.Value
import Idealize.ShloMosaic.Lib.ValueIdx
import Idealize.ShloMosaic.Lib.Tactic

noncomputable section

namespace Cert.KernelIdeal.Blocks

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ)

theorem zero2 : (![0, 0] : Fin 2 → Nat) = fun _ => 0 := funext fun a => by fin_cases a <;> rfl
theorem zero3 : (![0, 0, 0] : Fin 3 → Nat) = fun _ => 0 := funext fun a => by fin_cases a <;> rfl

/-- The four index maps, decided over the 256 points: every window's block index on the position axis is the point's
    number, and zero on every other axis. -/
theorem index_maps : ∀ t : Fin cfg0.N,
    win0_0.index t (0 : Fin 3) = t.val ∧ win0_0.index t (1 : Fin 3) = 0 ∧ win0_0.index t (2 : Fin 3) = 0
    ∧ win0_1.index t (0 : Fin 2) = t.val ∧ win0_1.index t (1 : Fin 2) = 0
    ∧ win0_2.index t (0 : Fin 3) = t.val ∧ win0_2.index t (1 : Fin 3) = 0 ∧ win0_2.index t (2 : Fin 3) = 0
    ∧ win0_3.index t (0 : Fin 2) = t.val ∧ win0_3.index t (1 : Fin 2) = 0 :=
  (by decide +kernel : ∀ t : Fin grid0.N, _)

/-- Row `p` of point `t`'s blocks is row `64 t + p` of the arrays. -/
def row (t : Fin cfg0.N) (p : Fin 64) : Fin 16384 :=
  ⟨t.val * 64 + p.val, by have h : t.val < 256 := lt_of_lt_of_eq t.isLt N_0; have := p.isLt; omega⟩

theorem row_val (t : Fin cfg0.N) (p : Fin 64) : (row t p).val = t.val * 64 + p.val := rfl

/-- The q block at point `t`, read at (p, a, d), is the flattened q at (64 t + p, a, d). -/
theorem read_q (c : Dev nD) (t : Fin cfg0.N) (p : Fin 64) (a d : Fin 32) :
    (iblk m c 0 t : Vec Ideal S64x32x32 .f32) (ix3 p a d) = (V m c main_v0 : S16384x32x32.Idx → EReal) (ix3 (row t p) a d) := by
  obtain ⟨e0, e1, e2, -⟩ := index_maps t
  show V m c main_v0 (((cfg0.win 0).blk t).view.emb (ix3 p a d)) = _
  refine congrArg (V m c main_v0) (funext fun x => Fin.ext ?_)
  match x with
  | ⟨0, _⟩ => show win0_0.index t (0 : Fin 3) * 64 + 1 * p.val = t.val * 64 + p.val; rw [e0]; omega
  | ⟨1, _⟩ => show win0_0.index t (1 : Fin 3) * 32 + 1 * a.val = a.val; rw [e1]; omega
  | ⟨2, _⟩ => show win0_0.index t (2 : Fin 3) * 32 + 1 * d.val = d.val; rw [e2]; omega

/-- The k block at point `t`, read at (p, d), is the flattened k at (64 t + p, d). -/
theorem read_k (c : Dev nD) (t : Fin cfg0.N) (p : Fin 64) (d : Fin 32) :
    (iblk m c 1 t : Vec Ideal S64x32 .f32) (ix2 p d) = (V m c main_v2 : S16384x32.Idx → EReal) (ix2 (row t p) d) := by
  obtain ⟨-, -, -, e0, e1, -⟩ := index_maps t
  show V m c main_v2 (((cfg0.win 1).blk t).view.emb (ix2 p d)) = _
  refine congrArg (V m c main_v2) (funext fun x => Fin.ext ?_)
  match x with
  | ⟨0, _⟩ => show win0_1.index t (0 : Fin 2) * 64 + 1 * p.val = t.val * 64 + p.val; rw [e0]; omega
  | ⟨1, _⟩ => show win0_1.index t (1 : Fin 2) * 32 + 1 * d.val = d.val; rw [e1]; omega

/-- The v block at point `t`, read at (p, ch, a), is the flattened v at (64 t + p, ch, a). -/
theorem read_v (c : Dev nD) (t : Fin cfg0.N) (p : Fin 64) (ch : Fin 256) (a : Fin 32) :
    (iblk m c 2 t : Vec Ideal S64x256x32 .f32) (ix3 p ch a) = (V m c main_v1 : S16384x256x32.Idx → EReal) (ix3 (row t p) ch a) := by
  obtain ⟨-, -, -, -, -, e0, e1, e2, -⟩ := index_maps t
  show V m c main_v1 (((cfg0.win 2).blk t).view.emb (ix3 p ch a)) = _
  refine congrArg (V m c main_v1) (funext fun x => Fin.ext ?_)
  match x with
  | ⟨0, _⟩ => show win0_2.index t (0 : Fin 3) * 64 + 1 * p.val = t.val * 64 + p.val; rw [e0]; omega
  | ⟨1, _⟩ => show win0_2.index t (1 : Fin 3) * 256 + 1 * ch.val = ch.val; rw [e1]; omega
  | ⟨2, _⟩ => show win0_2.index t (2 : Fin 3) * 32 + 1 * a.val = a.val; rw [e2]; omega

/-- Element (p, ch) of the result's block at point `t` sits at (64 t + p, ch) of the result array. -/
theorem out_emb (t : Fin cfg0.N) (p : Fin 64) (ch : Fin 256) :
    ((cfg0.win 3).blk t).view.emb (ix2 p ch) = (ix2 (row t p) ch : S16384x256.Idx) := by
  obtain ⟨-, -, -, -, -, -, -, -, e0, e1⟩ := index_maps t
  refine funext fun x => Fin.ext ?_
  match x with
  | ⟨0, _⟩ => show win0_3.index t (0 : Fin 2) * 64 + 1 * p.val = t.val * 64 + p.val; rw [e0]; omega
  | ⟨1, _⟩ => show win0_3.index t (1 : Fin 2) * 256 + 1 * ch.val = ch.val; rw [e1]; omega

/-- The result array as the one function of the three arrays the region reads. -/
abbrev whole (c : Dev nD) : S16384x256.Idx → EReal :=
  Cert.Attn.Gflat (V m c main_v0) (V m c main_v2) (V m c main_v1)

/-- What point `t` writes back is block `t` of that function. -/
theorem flushed_eq (c : Dev nD) (t : Fin cfg0.N) :
    (dats m 0 c).flushed 3 t = ((cfg0.win 3).blk t).view.read (Elt Ideal) (whole m c) := by
  show (cfg0.win 3).cut (grid0.coords t) ((dats m 0 c).after 3 t) = _
  rw [after0_3]
  unfold out0_3
  rw [View.canon_unit_zero zero2]
  simp only [View.ld_unit_zero (S := S64x32x32) zero3, View.ld_unit_zero (S := S64x32) zero2, View.ld_unit_zero (S := S64x256x32) zero3]
  funext j
  obtain ⟨p, ch, rfl⟩ : ∃ (p : Fin 64) (ch : Fin 256), j = ix2 p ch := ⟨j 0, j 1, eq_ix2 j⟩
  show k0_pay1 (iblk m c 0 t) (iblk m c 1 t) (iblk m c 2 t) (ix2 p ch) = whole m c (((cfg0.win 3).blk t).view.emb (ix2 p ch))
  rw [out_emb t p ch]
  refine (Cert.KernelIdeal.PayValue.pay_apply _ _ _ p ch).trans ?_
  show _ = Cert.Attn.flatAt _ _ _ (row t p) ch
  unfold Cert.Attn.flatAt
  simp only [read_q, read_k, read_v]

/-- An index of the result array is in point `t`'s block iff each coordinate is in the block's range on its axis. -/
theorem mem_blk (t : Fin cfg0.N) (i : S16384x256.Idx) :
    i ∈ ((cfg0.win 3).blk t).view.set ↔ ∀ a : Fin 2, win0_3.index t a * S64x256.size a ≤ (i a).val ∧ (i a).val < win0_3.index t a * S64x256.size a + S64x256.size a := by
  show i ∈ ((View.whole main_v3).slice (win0_3.rect t)).set ↔ _
  rw [View.set_slice_whole, Rect.mem_set_unit]
  exact Iff.rfl

/-- Row `r` of the result is written by point `r / 64`. -/
theorem cover (i : S16384x256.Idx) :
    ∃ t : Fin cfg0.N, (cfg0.win 3).flush t = true ∧ i ∈ ((cfg0.win 3).blk t).view.set := by
  have hi0 : (i 0).val < 16384 := (i 0).isLt
  have hi1 : (i 1).val < 256 := (i 1).isLt
  have hN : cfg0.N = 256 := N_0
  obtain ⟨t, ht⟩ : ∃ t : Fin cfg0.N, t.val = (i 0).val / 64 := ⟨⟨(i 0).val / 64, lt_of_lt_of_eq (show (i 0).val / 64 < 256 by omega) hN.symm⟩, rfl⟩
  obtain ⟨-, -, -, -, -, -, -, -, e0, e1⟩ := index_maps t
  refine ⟨t, flush0_3 t, ?_⟩
  rw [mem_blk]
  intro a
  match a with
  | ⟨0, _⟩ => show win0_3.index t (0 : Fin 2) * 64 ≤ (i 0).val ∧ (i 0).val < win0_3.index t (0 : Fin 2) * 64 + 64; rw [e0, ht]; omega
  | ⟨1, _⟩ => show win0_3.index t (1 : Fin 2) * 256 ≤ (i 1).val ∧ (i 1).val < win0_3.index t (1 : Fin 2) * 256 + 256; rw [e1]; omega

/-- The result array after the region. -/
theorem final (c : Dev nD) : (dats m 0 c).arrAt 3 cfg0.N = whole m c :=
  (dats m 0 c).arrAt_eq_of_cover 3 (whole m c) (fun t _ => flushed_eq m c t) cover

end Cert.KernelIdeal.Blocks

end
-- ==== Proof.KernelValue.lean ====
/-
  The whole kernel program's result. Before the region the host flattens the three arguments (q, v, k) so that the
  4·64·64 positions lie on one axis; after it, the host unflattens the [16384, 256] result to [4, 64, 64, 256] and
  moves the channel axis forward, to [4, 256, 64, 64]. Position (b, w, h) is row (b·64 + w)·64 + h of the flattened
  arrays, so the result at (b, c, w, h) is the region's row for that position at channel c, which is the
  specification `Cert.Attn.G` of the three arguments.
-/
import proofs.«126113_j29850022707608_2_alg».proof.Proof.Spec
import proofs.«126113_j29850022707608_2_alg».proof.Proof.HostLayout
import proofs.«126113_j29850022707608_2_alg».proof.Proof.KernelBlocks
import Idealize.ShloMosaic.Lib.StableHlo.Run

noncomputable section

namespace Cert.KernelIdeal.Whole

open Cert.KernelIdeal Cert.KernelIdeal.Gen Idealize.ShloMosaic Idealize.ShloMosaic.TcCoe Idealize.SL.Sem
open Idealize.ShloMosaic.ValueIdx Idealize.ShloMosaic.StableHlo
open Idealize.ShloMosaic.Pipeline (Dat)

variable (m : (ℓ : Loc nD τ sig) → Buf (Elt Ideal) ℓ) (ρ : Dev nD → PrngReg)

/-- The region finds q flattened. -/
theorem entry_q (c : Dev nD) : (V m c main_v0 : S16384x32x32.Idx → EReal)
    = shapeCast S16384x32x32 (m ((c : Thread nD τ).loc main_arg0)) shapeCasts_S4x64x64x32x32_S16384x32x32 := by
  show StableHlo.after hostOps0 (fun b => m (c, b)) (Proc.devRef .tc main_v0) = _
  after_results
  rfl

/-- The region finds v flattened. -/
theorem entry_v (c : Dev nD) : (V m c main_v1 : S16384x256x32.Idx → EReal)
    = shapeCast S16384x256x32 (m ((c : Thread nD τ).loc main_arg1)) shapeCasts_S4x64x64x256x32_S16384x256x32 := by
  show StableHlo.after hostOps0 (fun b => m (c, b)) (Proc.devRef .tc main_v1) = _
  after_results
  rfl

/-- The region finds k flattened, its unit axis dropped. -/
theorem entry_k (c : Dev nD) : (V m c main_v2 : S16384x32.Idx → EReal)
    = shapeCast S16384x32 (m ((c : Thread nD τ).loc main_arg2)) shapeCasts_S4x64x64x32x1_S16384x32 := by
  show StableHlo.after hostOps0 (fun b => m (c, b)) (Proc.devRef .tc main_v2) = _
  after_results
  rfl

/-- The program's result after the host's last two lines: the region's array unflattened and transposed. -/
theorem tail_eq (c : Dev nD) :
    Pipeline.afterTail₀ cfgs (dats m) 0 (V0 m) [hostOps1] c main_v5
      = transpose S4x256x64x64 [0, 3, 1, 2] (shapeCast S4x64x64x256 (Blocks.whole m c) shapeCasts_S16384x256_S4x64x64x256)
          transposes_S4x64x64x256_S4x256x64x64_0_3_1_2 := by
  unfold Pipeline.afterTail₀
  show StableHlo.after hostOps1 _ (Proc.devRef .tc main_v5) = _
  after_results
  have hw : Pipeline.withArrays (cfgs 0).spec c (V0 m c) (fun w => (dats m 0 c).arrAt w (cfgs 0).N) (Proc.tc.devRef main_v3)
      = Blocks.whole m c :=
    (Pipeline.withArrays_arr spec0 launch0.win.arr_inj c _ _ 3).trans (Blocks.final m c)
  rw [hw]
  rfl

/-- The program's result is the specification of its three arguments. -/
theorem result_eq (c : Dev nD) :
    Pipeline.afterTail₀ cfgs (dats m) 0 (V0 m) [hostOps1] c main_v5
      = Cert.Attn.G (m ((c : Thread nD τ).loc main_arg0)) (m ((c : Thread nD τ).loc main_arg1)) (m ((c : Thread nD τ).loc main_arg2)) := by
  rw [tail_eq m c]
  funext i
  obtain ⟨b, ch, w, h, rfl⟩ : ∃ (b : Fin 4) (ch : Fin 256) (w h : Fin 64), i = ix4 b ch w h := ⟨i 0, i 1, i 2, i 3, eq_ix4 i⟩
  rw [Cert.Attn.G_ix4]
  refine (Cert.Attn.Layout.tail_apply _ _ _ b ch w h).trans ?_
  show Cert.Attn.flatAt _ _ _ (Cert.Attn.pos b w h) ch = _
  unfold Cert.Attn.flatAt Cert.Attn.outAt
  rw [entry_q m c, entry_v m c, entry_k m c]
  exact congrArg₂ Cert.Attn.mix
    (congrArg₂ Cert.Attn.logit
      (funext fun a => funext fun d => Cert.Attn.Layout.castQ _ _ b w h a d)
      (funext fun d => Cert.Attn.Layout.castK _ _ b w h d))
    (funext fun a => Cert.Attn.Layout.castV _ _ b w h ch a)

/-- Every weakly fair execution of the kernel program terminates with the result array at the specification of the
    arguments, and the arguments unchanged. -/
theorem run : θ_run defs (onTc (τ := τ) (main (F := Ideal))) ⟨m, fun _ => 0, ρ⟩ fun r => ∀ c : Dev nD,
      r.2.mem ((c.tc : Thread nD τ).loc main_v5)
        = Cert.Attn.G (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
      ⟨((h c).2 main_v5 (Pipeline.mem_restRefs_of main_v5 (by decide) (by decide))).trans (result_eq m c),
       ((h c).2 main_arg0 (Pipeline.mem_restRefs_of main_arg0 (by decide) (by decide))).trans (W_main_arg0 m (dats m) c),
       ((h c).2 main_arg1 (Pipeline.mem_restRefs_of main_arg1 (by decide) (by decide))).trans (W_main_arg1 m (dats m) c),
       ((h c).2 main_arg2 (Pipeline.mem_restRefs_of main_arg2 (by decide) (by decide))).trans (W_main_arg2 m (dats m) c)⟩)
    (run_main m ρ)

end Cert.KernelIdeal.Whole

end
-- ==== Proof.RefValue.lean ====
/-
  The reference program's result is the specification `Cert.Attn.G`, for real-valued q and k.

  At index (b, c, w, h) the reference computes  Σ_m v[b,w,h,c,m] · soft(l')_m  with
  l'_m = Σ_d (q[b,w,h,m,d] / 8) · k[b,w,h,d,0], its row maximum taken as max(−∞, fold of max from −∞) and its
  normalising sum started from 0. The specification has  Σ_m soft(l)_m · v[b,w,h,c,m]  with
  l_m = (Σ_d q[b,w,h,m,d] · k[b,w,h,d,0]) · (1/8). For real q and k the two logit vectors agree: every term is a
  real number, so the quotient by 8 is the product with 1/8 and the factor leaves the finite sum by distributivity.
  Everything after the logits is the same function of them; the last product commutes.
-/
import proofs.«126113_j29850022707608_2_alg».proof.Proof.Spec
import proofs.«126113_j29850022707608_2_alg».proof.Proof.Gen.ReferenceIdeal.Read
import Idealize.ShloMosaic.Lib.Pipeline.Value
import Idealize.ShloMosaic.Lib.ValueIdx
import Idealize.ShloMosaic.PureOps.Ideal.Laws
noncomputable section
open Idealize.ShloMosaic Idealize.ShloMosaic.ValueIdx
namespace Cert.ReferenceIdeal.RefValue
open Cert.ReferenceIdeal

/-! ## The three words: 8, 1/8 and −∞ -/

/-- The word `0x41000000` denotes 8. -/
theorem w8 : Ideal.ofBits .f32 0x41000000#32 = ((8 : ℝ) : EReal) := by
  simp [Ideal.ofBits, Ideal.ieee, -EReal.coe_mul]; norm_num

/-- The word `0x3E000000` denotes 1/8. -/
theorem w8inv : Ideal.ofBits .f32 0x3E000000#32 = ((1 / 8 : ℝ) : EReal) := by
  simp [Ideal.ofBits, Ideal.ieee, -EReal.coe_mul]; norm_num

/-- The word `0xFF800000` denotes −∞. -/
theorem wbot : Ideal.ofBits .f32 0xFF800000#32 = (⊥ : EReal) := by
  simp [Ideal.ofBits, Ideal.ieee]

/-! ## The logits over the reals -/

/-- The inclusion of the reals in the extended reals commutes with a sum over 32 terms. -/
theorem coe_sum (f : Fin 32 → ℝ) : ((∑ d, f d : ℝ) : EReal) = ∑ d, (f d : EReal) := by
  induction (Finset.univ : Finset (Fin 32)) using Finset.induction_on with
  | empty => simp
  | insert a s ha ih => rw [Finset.sum_insert ha, Finset.sum_insert ha, EReal.coe_add, ih]

/-- For real vectors r and s:  Σ_d (r_d / 8) · s_d = (Σ_d r_d · s_d) · (1/8).  Each quotient by 8 is the product
    with 1/8; every term is then the inclusion of a real, and in ℝ the common factor leaves the sum. -/
theorem logit_real (r s : Fin 32 → ℝ) :
    ∑ d : Fin 32, Ideal.div (r d : EReal) (Ideal.ofBits .f32 0x41000000#32) * (s d : EReal)
      = (∑ d : Fin 32, (r d : EReal) * (s d : EReal)) * Ideal.ofBits .f32 0x3E000000#32 := by
  rw [w8, w8inv]
  have h1 : ∀ d, Ideal.div (r d : EReal) ((8 : ℝ) : EReal) * (s d : EReal) = ((r d * (1 / 8) * s d : ℝ) : EReal) := fun d => by
    rw [Ideal.div_coe (by norm_num), ← EReal.coe_mul, ← EReal.coe_mul]
  have h2 : ∀ d, (r d : EReal) * (s d : EReal) = ((r d * s d : ℝ) : EReal) := fun d => (EReal.coe_mul _ _).symm
  rw [Finset.sum_congr rfl fun d _ => h1 d, Finset.sum_congr rfl fun d _ => h2 d, ← coe_sum, ← coe_sum, ← EReal.coe_mul, Finset.sum_mul]
  exact congrArg _ (Finset.sum_congr rfl fun d _ => by ring)

/-! ## The index maps at coordinates

Each operation of the reference reads its operands at an index computed from the result's index. At a result index
given by its coordinates these are again indices given by coordinates. -/

open Cert.ReferenceIdeal.Read

section Idx
variable (b : Fin 4) (c : Fin 256) (w h : Fin 64) (m d : Fin 32)

/-- The transpose [0, 3, 1, 2] reads (b, c, w, h) at (b, w, h, c). -/
theorem i16 : idx_main_v16 (ix4 b c w h) = ix4 b w h c :=
  funext fun a => Fin.ext (by match a with | ⟨0, _⟩ => rfl | ⟨1, _⟩ => rfl | ⟨2, _⟩ => rfl | ⟨3, _⟩ => rfl)

/-- The reshape that drops the trailing unit axis reads (b, w, h, c) at (b, w, h, c, 0): the row-major position
    ((b·64 + w)·64 + h)·256 + c has these quotients and remainders. -/
theorem i15 : idx_main_v15 (ix4 b w h c) = ix5 b w h c (0 : Fin 1) :=
  funext fun a => Fin.ext (by
    have hb := b.isLt; have hw := w.isLt; have hh := h.isLt; have hc := c.isLt
    match a with
    | ⟨0, _⟩ => show (((b.val * 64 + w.val) * 64 + h.val) * 256 + c.val) / 1048576 = b.val; omega
    | ⟨1, _⟩ => show (((b.val * 64 + w.val) * 64 + h.val) * 256 + c.val) / 16384 % 64 = w.val; omega
    | ⟨2, _⟩ => show (((b.val * 64 + w.val) * 64 + h.val) * 256 + c.val) / 256 % 64 = h.val; omega
    | ⟨3, _⟩ => show (((b.val * 64 + w.val) * 64 + h.val) * 256 + c.val) / 1 % 256 = c.val; omega
    | ⟨4, _⟩ => rfl)

/-- The second contraction, over the slot m: its left operand v is read at (b, w, h, c, m) … -/
theorem l14 : lidx_main_v14 (ix5 b w h c (0 : Fin 1)) m = ix5 b w h c m :=
  funext fun a => Fin.ext (by match a with | ⟨0, _⟩ => rfl | ⟨1, _⟩ => rfl | ⟨2, _⟩ => rfl | ⟨3, _⟩ => rfl | ⟨4, _⟩ => rfl)

/-- … and its right operand, the weights, at (b, w, h, m, 0). -/
theorem r14 : ridx_main_v14 (ix5 b w h c (0 : Fin 1)) m = ix5 b w h m (0 : Fin 1) :=
  funext fun a => Fin.ext (by match a with | ⟨0, _⟩ => rfl | ⟨1, _⟩ => rfl | ⟨2, _⟩ => rfl | ⟨3, _⟩ => rfl | ⟨4, _⟩ => rfl)

/-- The broadcast of the normalising sum along the slot axis reads (b, w, h, m, 0) at (b, w, h, 0, 0) … -/
theorem i12 : idx_main_v12 (ix5 b w h m (0 : Fin 1)) = ix5 b w h (0 : Fin 1) (0 : Fin 1) :=
  funext fun a => Fin.ext (by match a with | ⟨0, _⟩ => rfl | ⟨1, _⟩ => rfl | ⟨2, _⟩ => rfl | ⟨3, _⟩ => rfl | ⟨4, _⟩ => rfl)

/-- … which the broadcast inserting a unit axis reads at (b, w, h, 0). -/
theorem i11 : idx_main_v11 (ix5 b w h (0 : Fin 1) (0 : Fin 1)) = ix4 b w h (0 : Fin 1) :=
  funext fun a => Fin.ext (by match a with | ⟨0, _⟩ => rfl | ⟨1, _⟩ => rfl | ⟨2, _⟩ => rfl | ⟨3, _⟩ => rfl)

/-- The sum over the slot axis at (b, w, h, 0) reads its m-th term at (b, w, h, m, 0). -/
theorem i10 : idx_main_v10 (ix4 b w h (0 : Fin 1)) m = ix5 b w h m (0 : Fin 1) :=
  funext fun a => Fin.ext (by match a with | ⟨0, _⟩ => rfl | ⟨1, _⟩ => rfl | ⟨2, _⟩ => rfl | ⟨3, _⟩ => rfl | ⟨4, _⟩ => rfl)

/-- The two broadcasts of the row maximum, likewise. -/
theorem i7 : idx_main_v7 (ix5 b w h m (0 : Fin 1)) = ix5 b w h (0 : Fin 1) (0 : Fin 1) :=
  funext fun a => Fin.ext (by match a with | ⟨0, _⟩ => rfl | ⟨1, _⟩ => rfl | ⟨2, _⟩ => rfl | ⟨3, _⟩ => rfl | ⟨4, _⟩ => rfl)

theorem i6 : idx_main_v6 (ix5 b w h (0 : Fin 1) (0 : Fin 1)) = ix4 b w h (0 : Fin 1) :=
  funext fun a => Fin.ext (by match a with | ⟨0, _⟩ => rfl | ⟨1, _⟩ => rfl | ⟨2, _⟩ => rfl | ⟨3, _⟩ => rfl)

/-- The first contraction, over d: its left operand q / 8 is read at (b, w, h, m, d) … -/
theorem l2 : lidx_main_v2 (ix5 b w h m (0 : Fin 1)) d = ix5 b w h m d :=
  funext fun a => Fin.ext (by match a with | ⟨0, _⟩ => rfl | ⟨1, _⟩ => rfl | ⟨2, _⟩ => rfl | ⟨3, _⟩ => rfl | ⟨4, _⟩ => rfl)

/-- … and its right operand k at (b, w, h, d, 0). -/
theorem r2 : ridx_main_v2 (ix5 b w h m (0 : Fin 1)) d = ix5 b w h d (0 : Fin 1) :=
  funext fun a => Fin.ext (by match a with | ⟨0, _⟩ => rfl | ⟨1, _⟩ => rfl | ⟨2, _⟩ => rfl | ⟨3, _⟩ => rfl | ⟨4, _⟩ => rfl)

/-- Inserting the coordinate m on the reduced axis 3 of (b, w, h, 0) gives (b, w, h, m, 0). -/
theorem lift3 (hr : S4x64x64x32x1.Reduces [3] S4x64x64x1) : hr.lift (ix4 b w h (0 : Fin 1)) m = ix5 b w h m (0 : Fin 1) :=
  funext fun a => Fin.ext (by match a with | ⟨0, _⟩ => rfl | ⟨1, _⟩ => rfl | ⟨2, _⟩ => rfl | ⟨3, _⟩ => rfl | ⟨4, _⟩ => rfl)

end Idx

/-! ## The operations after the logits, one at a time

Each is stated as a function of the logit vector  m ↦ (first contraction at (b, w, h, m, 0)), kept closed. -/

open Cert.ReferenceIdeal.Gen
section Stages
variable (q : (⟨S4x64x64x32x32, .f32⟩ : BufTy).Contents (Elt Ideal)) (v : (⟨S4x64x64x256x32, .f32⟩ : BufTy).Contents (Elt Ideal))
  (k : (⟨S4x64x64x32x1, .f32⟩ : BufTy).Contents (Elt Ideal))
  (b : Fin 4) (c : Fin 256) (w h : Fin 64) (m : Fin 32)

theorem hred : S4x64x64x32x1.Reduces [3] S4x64x64x1 := by decide

/-- A reduction by `max` over the slot axis is, at each remaining index, the fold of `max` from the initial value over
    the 32 slots (`max` commutes and associates, so the order does not matter). -/
theorem v3_gen (y : S4x64x64x32x1.Idx → EReal) (init : S_.Idx → EReal) (j : S4x64x64x1.Idx) :
    Host.reduce (FloatOps.maximumf (F := Ideal) (φ := .f32)) y init reducesTo_S4x64x64x32x1_S4x64x64x1_d3 h_S_ j
      = (Finset.univ : Finset (Fin 32)).fold max (init (Shape.Idx.first h_S_)) (fun m => y (hred.lift j m)) :=
  Host.reduce_eq_fold_single (FloatOps.maximumf (F := Ideal) (φ := .f32)) y init reducesTo_S4x64x64x32x1_S4x64x64x1_d3 hred h_S_ j

/-- The max-reduction at (b, w, h, 0) is the row maximum of the logits. -/
theorem v3_at :
    val_main_v3 (F := Ideal) q k (ix4 b w h (0 : Fin 1))
      = Cert.Attn.rowMax (fun m => val_main_v2 (F := Ideal) q k (ix5 b w h m (0 : Fin 1))) := by
  unfold val_main_v3
  generalize val_main_v2 (F := Ideal) q k = y
  refine (v3_gen y _ _).trans ?_
  have e : (fun m => y (hred.lift (ix4 b w h (0 : Fin 1)) m)) = fun m => y (ix5 b w h m (0 : Fin 1)) :=
    funext fun m => congrArg y (lift3 b w h m hred)
  rw [e]
  rfl

/-- The maximum with −∞ changes nothing: max ⊥ x = x. -/
theorem v5_at :
    val_main_v5 (F := Ideal) q k (ix4 b w h (0 : Fin 1))
      = Cert.Attn.rowMax (fun m => val_main_v2 (F := Ideal) q k (ix5 b w h m (0 : Fin 1))) := by
  rw [val_main_v5_apply, val_main_v4_apply, val_main_cst_1_apply, v3_at]
  show max (Ideal.ofBits .f32 0xFF800000#32) _ = _
  rw [wbot]
  exact max_bot_left _

/-- Broadcast back along the slot axis, every slot sees the row maximum. -/
theorem v7_at :
    val_main_v7 (F := Ideal) q k (ix5 b w h m (0 : Fin 1))
      = Cert.Attn.rowMax (fun m => val_main_v2 (F := Ideal) q k (ix5 b w h m (0 : Fin 1))) := by
  rw [val_main_v7_apply, i7, val_main_v6_apply, i6, v5_at]

/-- The exponential of the shifted logit. -/
theorem v9_at :
    val_main_v9 (F := Ideal) q k (ix5 b w h m (0 : Fin 1))
      = Ideal.exp (val_main_v2 (F := Ideal) q k (ix5 b w h m (0 : Fin 1))
          - Cert.Attn.rowMax (fun m => val_main_v2 (F := Ideal) q k (ix5 b w h m (0 : Fin 1)))) := by
  rw [val_main_v9_apply, val_main_v8_apply, v7_at]
  exact rfl

/-- The normalising sum: the initial value is 0, so it is the sum of the 32 exponentials. -/
theorem v10_at :
    val_main_v10 (F := Ideal) q k (ix4 b w h (0 : Fin 1))
      = ∑ m' : Fin 32, Ideal.exp (val_main_v2 (F := Ideal) q k (ix5 b w h m' (0 : Fin 1))
          - Cert.Attn.rowMax (fun m => val_main_v2 (F := Ideal) q k (ix5 b w h m (0 : Fin 1)))) := by
  rw [val_main_v10_apply, val_main_cst_2_apply]
  show Ideal.ofBits .f32 0x00000000#32 + _ = _
  rw [Ideal.ofBits_zero_f32, zero_add]
  exact Finset.sum_congr rfl fun m' _ => by rw [i10, v9_at]

/-- Broadcast back along the slot axis, every slot sees the normalising sum. -/
theorem v12_at :
    val_main_v12 (F := Ideal) q k (ix5 b w h m (0 : Fin 1))
      = ∑ m' : Fin 32, Ideal.exp (val_main_v2 (F := Ideal) q k (ix5 b w h m' (0 : Fin 1))
          - Cert.Attn.rowMax (fun m => val_main_v2 (F := Ideal) q k (ix5 b w h m (0 : Fin 1)))) := by
  rw [val_main_v12_apply, i12, val_main_v11_apply, i11, v10_at]

/-- The quotient is the softmax weight of slot m. -/
theorem v13_at :
    val_main_v13 (F := Ideal) q k (ix5 b w h m (0 : Fin 1))
      = Cert.Attn.soft (fun m => val_main_v2 (F := Ideal) q k (ix5 b w h m (0 : Fin 1))) m := by
  rw [val_main_v13_apply, v9_at, v12_at]
  exact rfl

/-- The second contraction: the sum over the slots of v times the weight. -/
theorem v14_at :
    val_main_v14 (F := Ideal) q v k (ix5 b w h c (0 : Fin 1))
      = ∑ m : Fin 32, v (ix5 b w h c m) * Cert.Attn.soft (fun m => val_main_v2 (F := Ideal) q k (ix5 b w h m (0 : Fin 1))) m := by
  rw [val_main_v14_apply]
  exact Finset.sum_congr rfl fun m _ => by rw [l14, r14, v13_at]

/-- The reshape and the transpose only move it to (b, c, w, h). -/
theorem v16_at :
    val_main_v16 (F := Ideal) q v k (ix4 b c w h)
      = ∑ m : Fin 32, v (ix5 b w h c m) * Cert.Attn.soft (fun m => val_main_v2 (F := Ideal) q k (ix5 b w h m (0 : Fin 1))) m := by
  rw [val_main_v16_apply, i16, val_main_v15_apply, i15, v14_at]

/-- The logits: for real q and k the first contraction of q / 8 with k is the specification's logit,
    (Σ_d q · k) · (1/8). -/
theorem v2_at (hq : ∀ i, ∃ r : ℝ, q i = (r : EReal)) (hk : ∀ i, ∃ r : ℝ, k i = (r : EReal)) :
    val_main_v2 (F := Ideal) q k (ix5 b w h m (0 : Fin 1))
      = Cert.Attn.logit (fun m d => q (ix5 b w h m d)) (fun d => k (ix5 b w h d (0 : Fin 1))) m := by
  choose rq hrq using hq
  choose rk hrk using hk
  rw [val_main_v2_apply]
  unfold Cert.Attn.logit
  have e : ∀ d : Fin 32,
      val_main_v1 (F := Ideal) q (lidx_main_v2 (ix5 b w h m (0 : Fin 1)) d) * k (ridx_main_v2 (ix5 b w h m (0 : Fin 1)) d)
        = Ideal.div ((rq (ix5 b w h m d) : ℝ) : EReal) (Ideal.ofBits .f32 0x41000000#32)
            * ((rk (ix5 b w h d (0 : Fin 1)) : ℝ) : EReal) := fun d => by
    rw [l2, r2, val_main_v1_apply, val_main_v0_apply, val_main_cst_apply, hrq, hrk]
    exact rfl
  rw [Finset.sum_congr rfl fun d _ => e d]
  refine (logit_real (fun d => rq (ix5 b w h m d)) (fun d => rk (ix5 b w h d (0 : Fin 1)))).trans ?_
  simp only [hrq, hrk]

end Stages

/-! ## The whole result -/

/-- The reference's result is `G`: at (b, c, w, h) it is Σ_m v · soft(l)_m with l the specification's logits, and the
    product commutes. -/
theorem ref_eq (q : (⟨S4x64x64x32x32, .f32⟩ : BufTy).Contents (Elt Ideal)) (v : (⟨S4x64x64x256x32, .f32⟩ : BufTy).Contents (Elt Ideal))
    (k : (⟨S4x64x64x32x1, .f32⟩ : BufTy).Contents (Elt Ideal))
    (hq : ∀ i, ∃ r : ℝ, q i = (r : EReal)) (hk : ∀ i, ∃ r : ℝ, k i = (r : EReal)) :
    Cert.ReferenceIdeal.Read.val_main_v16 (F := Ideal) q v k = Cert.Attn.G q v k := by
  funext i
  obtain ⟨b, c, w, h, rfl⟩ : ∃ (b : Fin 4) (c : Fin 256) (w h : Fin 64), i = ix4 b c w h := ⟨i 0, i 1, i 2, i 3, eq_ix4 i⟩
  rw [Cert.Attn.G_ix4, v16_at]
  unfold Cert.Attn.outAt Cert.Attn.mix
  have hL : (fun m => val_main_v2 (F := Ideal) q k (ix5 b w h m (0 : Fin 1)))
      = Cert.Attn.logit (fun m d => q (ix5 b w h m d)) (fun d => k (ix5 b w h d (0 : Fin 1))) :=
    funext fun m => v2_at q k b w h m hq hk
  rw [hL]
  exact Finset.sum_congr rfl fun m _ => mul_comm _ _

end Cert.ReferenceIdeal.RefValue
end
-- ==== Proof.lean ====
/-
  The certificate's five claims.

  Both idealized programs compute, at each of the 4·64·64 positions and each of the 256 channels, the softmax-weighted
  mean  Σ_m soft(l)_m · v[c, m]  of the channel's 32 values, the 32 logits being  l_m = ⟨q[m, ·], k⟩ / 8  (Proof/Spec.lean).
  The kernel program flattens the positions onto one axis, computes 64 positions per grid point — scaling the inner
  product by the word for 1/8 after the sum — and restores the layout afterwards (Proof/KernelPayload.lean: one block's
  arithmetic at an index; Proof/KernelBlocks.lean: the 256 blocks tile the result array; Proof/KernelValue.lean with
  Proof/HostLayout.lean: the host's reshapes and transpose). The reference divides q by 8 before the inner product
  (Proof/RefValue.lean): for real-valued q and k the two logits are one number, by distributivity over a finite sum of
  reals — the one place the precondition is used (Proof/FiniteInputs.lean: the precondition makes q and k real-valued).
  The three frames are the generated frame runs; the ideal pass rewrote nothing, so the idealization claim is trivial.
-/
import proofs.«126113_j29850022707608_2_alg».proof.Defs
import proofs.«126113_j29850022707608_2_alg».proof.Proof.Gen.Kernel
import proofs.«126113_j29850022707608_2_alg».proof.Proof.Gen.Kernel.Skeleton
import proofs.«126113_j29850022707608_2_alg».proof.Proof.Gen.Kernel.Launch
import proofs.«126113_j29850022707608_2_alg».proof.Proof.Gen.Kernel.Points
import proofs.«126113_j29850022707608_2_alg».proof.Proof.Gen.Kernel.Frame
import proofs.«126113_j29850022707608_2_alg».proof.Proof.Gen.KernelIdeal
import proofs.«126113_j29850022707608_2_alg».proof.Proof.Gen.KernelIdeal.Skeleton
import proofs.«126113_j29850022707608_2_alg».proof.Proof.Gen.KernelIdeal.Launch
import proofs.«126113_j29850022707608_2_alg».proof.Proof.Gen.KernelIdeal.Points
import proofs.«126113_j29850022707608_2_alg».proof.Proof.Gen.KernelIdeal.Frame
import proofs.«126113_j29850022707608_2_alg».proof.Proof.Gen.ReferenceIdeal
import proofs.«126113_j29850022707608_2_alg».proof.Proof.Gen.ReferenceIdeal.Run
import proofs.«126113_j29850022707608_2_alg».proof.Proof.Gen.ReferenceIdeal.Read
import proofs.«126113_j29850022707608_2_alg».proof.Proof.Gen.Pre_finite_inputs
import proofs.«126113_j29850022707608_2_alg».proof.Proof.FiniteInputs
import proofs.«126113_j29850022707608_2_alg».proof.Proof.KernelValue
import proofs.«126113_j29850022707608_2_alg».proof.Proof.RefValue
import Idealize.ShloMosaic.Adequacy
import Idealize.ShloMosaic.Init

noncomputable section

namespace Cert.Proof

open Idealize.ShloMosaic Idealize.SL.Sem

/-- The word-level kernel program runs and keeps its arguments: its generated frame run. -/
theorem frame_kernel : Cert.frame_Kernel := fun m ρ _ => Cert.Kernel.Gen.frame m ρ

/-- The idealized kernel program likewise. -/
theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories agreeing on q, v, k, of which q and k are real-valued by the precondition, both programs end with
    the result array at the specification `Cert.Attn.G` of the arguments. -/
theorem algebraic : Cert.algebraic_KernelIdeal_ReferenceIdeal := by
  intro m ρ m' ρ' hpre hagree
  refine ⟨_, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  obtain ⟨hq, hk⟩ := Cert.Attn.Finite.finite_of_pre _ _ _ (hpre c)
  refine (Cert.ReferenceIdeal.Read.val_main_v16_eq _ _ _).trans ?_
  rw [(hagree c).1, (hagree c).2.1, (hagree c).2.2]
  exact Cert.ReferenceIdeal.RefValue.ref_eq _ _ _ hq hk

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
